-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : FVec F S8192x4096 .f32) (main_arg2 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  main_v13
-- ==== Kernel.lean ====
abbrev S8192x4096 : Shape := ⟨2, ![8192, 4096]⟩
abbrev S1x1 : Shape := ⟨2, ![1, 1]⟩
abbrev S512x4096 : Shape := ⟨2, ![512, 4096]⟩
abbrev S1x512x4096 : Shape := ⟨3, ![1, 512, 4096]⟩
abbrev S1 : Shape := ⟨1, ![1]⟩
abbrev S1x1x1 : Shape := ⟨3, ![1, 1, 1]⟩
abbrev S_ : Shape := ⟨0, ![]⟩

abbrev nBuf : Space → Nat
  | .hbm => 5
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S1x1, .f32⟩
  | .hbm, ⟨4, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S1x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S512x4096_S512x4096_0_0 : ∀ a, (![0, 0] : Fin 2 → Nat) a + S512x4096.size a ≤ S512x4096.size a
  h_S512x4096 : 0 < S512x4096.numel
  shapeCasts_S512x4096_S1x512x4096 : S512x4096.ShapeCasts S1x512x4096
  reduces_S1x512x4096_S1 : S1x512x4096.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .f32 = 32 ∨ (Rect.block (s := S8192x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  reducesTo_S8192x4096_S_d0_1 : S8192x4096.ReducesTo [0, 1] S_
  h_S_ : 0 < S_.numel

variable [Facts₀]

class Facts : Prop extends Facts₀ where

variable [Facts]
-- ==== Proof.SquaredError.lean ====
/-
  The quantity both programs compute, and the one law that joins them.

  For two 8192 x 4096 arrays `p`, `y` of extended reals, write `f i = (p i - y i) * (p i - y i)`. The reference adds
  `f` over every entry at once. The kernel walks the sixteen row blocks of 512 rows in order, adds `f` over one
  block at a time, and accumulates the sixteen block totals. Addition on the extended reals is commutative and
  associative (it is a commutative monoid: `⊥ + ⊤ = ⊥` does not break either law), so a sum over the whole index
  set is the sum of the sums over the blocks of any partition of it. Nothing here needs the entries to be finite.

  This module states the summand (`sqdiff`), the partition (`entry`, `blocks`), the regrouping (`sum_blocks`) and the running total
  (`running`, `running_last`); it mentions no program.
-/
import Idealize.ShloMosaic.PureOps.Ideal
import Idealize.ShloMosaic.Lib.ValueIdx

noncomputable section

namespace Cert.SquaredError

open Idealize.ShloMosaic

/-- The whole array's shape and one row block's shape. -/
abbrev Whole : Shape := ⟨2, ![8192, 4096]⟩
abbrev Block : Shape := ⟨2, ![512, 4096]⟩

/-- The squared difference of two arrays at an entry: `(p i - y i) * (p i - y i)` on the extended reals. -/
def sqdiff (p y : Whole.Idx → EReal) : Whole.Idx → EReal := fun i => (p i - y i) * (p i - y i)

/-- Entry `j` of row block `t`, as an entry of the whole array: row `512 t + j₀`, column `j₁`. -/
def entry (t : Fin 16) (j : Block.Idx) : Whole.Idx := fun a =>
  match a with
  | ⟨0, _⟩ => ⟨512 * t.val + (j 0).val, by
      have h0 : (j 0).val < 512 := (j 0).isLt
      have := t.isLt
      show _ < 8192
      omega⟩
  | ⟨1, _⟩ => j 1

theorem entry_row (t : Fin 16) (j : Block.Idx) : (entry t j 0).val = 512 * t.val + (j 0).val := rfl
theorem entry_col (t : Fin 16) (j : Block.Idx) : (entry t j 1).val = (j 1).val := rfl

/-- The sixteen row blocks partition the array: every entry is entry `(row mod 512, column)` of block
    `row / 512`, and of no other. -/
def blocks : Fin 16 × Block.Idx ≃ Whole.Idx where
  toFun q := entry q.1 q.2
  invFun i :=
    (⟨(i 0).val / 512, by
        have h0 : (i 0).val < 8192 := (i 0).isLt
        omega⟩,
      fun a => match a with
        | ⟨0, _⟩ => ⟨(i 0).val % 512, by show _ < 512; omega⟩
        | ⟨1, _⟩ => i 1)
  left_inv q := by
    obtain ⟨t, j⟩ := q
    have h0 : (j 0).val < 512 := (j 0).isLt
    refine Prod.ext (Fin.ext ?_) (funext fun a => ?_)
    · show (512 * t.val + (j 0).val) / 512 = t.val
      omega
    · match a with
      | ⟨0, _⟩ =>
        apply Fin.ext
        show (512 * t.val + (j 0).val) % 512 = (j 0).val
        omega
      | ⟨1, _⟩ => rfl
  right_inv i := by
    funext a
    match a with
    | ⟨0, _⟩ =>
      apply Fin.ext
      show 512 * ((i 0).val / 512) + (i 0).val % 512 = (i 0).val
      omega
    | ⟨1, _⟩ => rfl

/-- REGROUPING. A sum over every entry of the array is the sum, over the sixteen row blocks, of the sums over each
    block. Holds in any commutative monoid; used on the extended reals. -/
theorem sum_blocks {M : Type} [AddCommMonoid M] (f : Whole.Idx → M) :
    ∑ i : Whole.Idx, f i = ∑ t : Fin 16, ∑ j : Block.Idx, f (entry t j) := by
  rw [← Equiv.sum_comp blocks f, Fintype.sum_prod_type]
  rfl

/-- The total of `f` over row block `t` (zero past the last block, so that the running total below is a plain
    recursion on a natural number). -/
def blockTotal (f : Whole.Idx → EReal) (t : ℕ) : EReal :=
  if h : t < 16 then ∑ j : Block.Idx, f (entry ⟨t, h⟩ j) else 0

theorem blockTotal_of_lt (f : Whole.Idx → EReal) (t : ℕ) (h : t < 16) :
    blockTotal f t = ∑ j : Block.Idx, f (entry ⟨t, h⟩ j) := dif_pos h

/-- THE RUNNING TOTAL, in the order the kernel accumulates it: block 0's total first, then one block more at each
    step. -/
def running (f : Whole.Idx → EReal) : ℕ → EReal
  | 0 => blockTotal f 0
  | n + 1 => running f n + blockTotal f (n + 1)

/-- It is the sum of the block totals so far. -/
theorem running_eq_sum (f : Whole.Idx → EReal) (n : ℕ) : running f n = ∑ t ∈ Finset.range (n + 1), blockTotal f t := by
  induction n with
  | zero => simp [running]
  | succ n ih => rw [running, ih, Finset.sum_range_succ _ (n + 1)]

/-- After the last block the running total is the sum over every entry. -/
theorem running_last (f : Whole.Idx → EReal) : running f 15 = ∑ i : Whole.Idx, f i := by
  rw [running_eq_sum, sum_blocks, ← Fin.sum_univ_eq_sum_range (fun t => blockTotal f t) 16]
  exact Finset.sum_congr rfl fun t _ => blockTotal_of_lt f t.val t.isLt

end Cert.SquaredError

end
-- ==== Proof.BlockArithmetic.lean ====
/-
  The body's arithmetic, read on the extended reals.

  The body has two stored values. The reset stores the 1 x 1 block holding the float zero, which is the real number
  0. The accumulate step stores `acc + s`, where `acc` is the 1 x 1 block it found and `s` is computed from the two
  512 x 4096 input blocks `p`, `y`: form `(p - y) * (p - y)` entry by entry, view it as a 1 x 512 x 4096 array (the
  same entries in the same row-major order), and add it up over its two long axes. The result of that reduction has a
  single entry, so it is the sum over every entry of the viewed array; the view is a bijection of index sets, so that
  is the sum over every entry of the block.
-/
import proofs.«139666_j32366873542744_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Accum

open Cert.KernelIdeal Cert.KernelIdeal.Gen Idealize.ShloMosaic

/-- The reset's block holds the real number zero. -/
theorem reset_apply (y : S1x1.Idx) : k0_pay1 (F := Ideal) y = 0 := by
  show Ideal.ofBits .f32 0x00000000#32 = 0
  exact Ideal.ofBits_zero_f32

/-- The accumulate step's block holds what it found plus the sum of squared differences over the two input blocks. -/
theorem step_apply (p y : FVec Ideal S512x4096 .f32) (acc : FVec Ideal S1x1 .f32) (k : S1x1.Idx) :
    k0_pay2 (F := Ideal) p y acc k = acc k + ∑ j : S512x4096.Idx, (p j - y j) * (p j - y j) := by
  have ht : ∀ b, S1.size b = 1 := fun b => match b with | ⟨0, _⟩ => rfl
  unfold k0_pay2
  dsimp only
  rw [ValueIdx.addf_apply, shapeCast_self, ValueIdx.broadcast_apply]
  refine congrArg (acc k + ·) ?_
  unfold extractAt shapeCast
  refine (Ideal.multiReduction_add_total _ 0x00000000#32 reduces_S1x512x4096_S1 ht (.inl rfl) rfl _).trans ?_
  exact Equiv.sum_comp (Shape.reshapeEquiv _) (mulf (subf p y) (subf p y))

end Cert.KernelIdeal.Accum

end
-- ==== Proof.CaseValues.lean ====
/-
  What each control case of the body leaves in the accumulator's 1 x 1 buffer, as a value.

  At the first grid point the body stores the reset block, reads it back, and stores the accumulate step's value
  computed from that read-back and the two input blocks. At every later point it only does the accumulate step, on
  the contents the point before left. Both statements hold for any float instance: they are about which stored value
  is read where, not about arithmetic.
-/
import proofs.«139666_j32366873542744_1_alg».proof.Proof.Gen.KernelIdeal.Frame
import Idealize.ShloMosaic.Lib.Pipeline.Value
import Idealize.ShloMosaic.Lib.Tactic

noncomputable section

namespace Cert.KernelIdeal.Accum

open Cert.KernelIdeal Cert.KernelIdeal.Gen
open Idealize.ShloMosaic Idealize.ShloMosaic.TcCoe Idealize.SL.Sem

variable {F : FTy → Type} [FloatOps F]

theorem origin2 : (![0, 0] : Fin 2 → Nat) = fun _ => 0 := funext fun a => by fin_cases a <;> rfl

/-- LATER POINTS: on an accumulator holding `acc`, the body leaves the accumulate step's value of the two input blocks
    and `acc`. -/
theorem later_value (c : Dev nD) (i : grid0.Coords) (a1 : Memref sig .tc .vmem S512x4096 .f32) (h1 : a1.IsWhole)
    (a2 : Memref sig .tc .vmem S512x4096 .f32) (h2 : a2.IsWhole) (a3 : Memref sig .tc .vmem S1x1 .f32) (h3 : a3.IsWhole)
    (hc : ¬cond0_0 i) (p y : Vec F S512x4096 .f32) (acc : Vec F S1x1 .f32) :
    out0_B_2 c i a1 h1 a2 h2 a3 h3 hc p y acc = k0_pay2 p y acc := by
  unfold out0_B_2
  rw [View.read_writes_eq_canon _ _ _ (cover0_B_2 c i a1 h1 a2 h2 a3 h3 hc p y acc)]
  unfold kernelRun0_B
  dsimp only
  rw [View.canon_unit_zero origin2]
  simp only [View.readAt_eq_ld, h1.read_unread, h2.read_unread, h3.read_unread,
    View.ld_unit_zero (S := S512x4096) origin2, View.ld_unit_zero (S := S1x1) origin2]

/-- THE FIRST POINT: whatever the accumulator held, the body leaves the accumulate step's value of the two input
    blocks and the reset block. -/
theorem first_value (c : Dev nD) (i : grid0.Coords) (a1 : Memref sig .tc .vmem S512x4096 .f32) (h1 : a1.IsWhole)
    (a2 : Memref sig .tc .vmem S512x4096 .f32) (h2 : a2.IsWhole) (a3 : Memref sig .tc .vmem S1x1 .f32) (h3 : a3.IsWhole)
    (hc : cond0_0 i) (p y : Vec F S512x4096 .f32) :
    out0_A_2 c i a1 h1 a2 h2 a3 h3 hc p y = k0_pay2 p y (k0_pay1 (F := F)) := by
  unfold out0_A_2
  rw [View.read_writes_eq_canon _ _ _ (cover0_A_2 c i a1 h1 a2 h2 a3 h3 hc p y)]
  unfold kernelRun0_A
  dsimp only
  sl_unfold_words
  rw [View.canon_cons_unit_zero (S := S1x1) origin2, View.readCov_unit_zero (S := S1x1) _ origin2]
  simp only [View.readAt_eq_ld, h1.read_unread, h2.read_unread,
    View.ld_unit_zero (S := S512x4096) origin2, View.ld_unit_zero (S := S1x1) origin2]

end Cert.KernelIdeal.Accum

end
-- ==== Proof.RunningTotal.lean ====
/-
  The accumulator after grid point `n` holds the running total of the squared differences over row blocks `0 … n`.

  Grid point `t` is handed rows `512 t … 512 t + 511` of each argument array (all 4096 columns): entry `j` of its
  block is entry `(512 t + j₀, j₁)` of the array. So the sum the accumulate step adds at point `t` is the total of the
  squared differences over row block `t`. At point 0 the step starts from the reset block, which is zero; at point
  `n + 1` from what point `n` left. By induction on the point the accumulator holds the running total.
-/
import proofs.«139666_j32366873542744_1_alg».proof.Proof.SquaredError
import proofs.«139666_j32366873542744_1_alg».proof.Proof.BlockArithmetic
import proofs.«139666_j32366873542744_1_alg».proof.Proof.CaseValues

noncomputable section

namespace Cert.KernelIdeal.Accum

open Cert.KernelIdeal Cert.KernelIdeal.Gen
open Idealize.ShloMosaic Idealize.ShloMosaic.TcCoe Idealize.SL.Sem
open Cert.SquaredError (sqdiff entry blockTotal blockTotal_of_lt running)

variable (m : (ℓ : Loc nD τ sig) → Buf (Elt Ideal) ℓ)

/-- The two argument arrays as core `c` holds them at launch. -/
abbrev pred (c : Dev nD) : S8192x4096.Idx → EReal := m ((c.tc : Thread nD τ).loc main_arg0)
abbrev obs (c : Dev nD) : S8192x4096.Idx → EReal := m ((c.tc : Thread nD τ).loc main_arg1)

/-- Both input windows walk the row blocks in order and never move along the columns: at point `t` the block index
    is `(t, 0)`. Decided once over the sixteen points. -/
theorem block_index : ∀ t : Fin cfg0.N,
    win0_0.index t (0 : Fin 2) = t.val ∧ win0_0.index t (1 : Fin 2) = 0
      ∧ win0_1.index t (0 : Fin 2) = t.val ∧ win0_1.index t (1 : Fin 2) = 0 :=
  (by decide +kernel : ∀ t : Fin grid0.N,
    win0_0.index t (0 : Fin 2) = t.val ∧ win0_0.index t (1 : Fin 2) = 0
      ∧ win0_1.index t (0 : Fin 2) = t.val ∧ win0_1.index t (1 : Fin 2) = 0)

/-- Entry `j` of the first argument's block at point `t` is entry `(512 t + j₀, j₁)` of the array. -/
theorem pred_block_apply (c : Dev nD) (t : Fin cfg0.N) (ht : t.val < 16) (j : S512x4096.Idx) :
    (iblk m c 0 t : Vec Ideal S512x4096 .f32) j = pred m c (entry ⟨t.val, ht⟩ j) := by
  have hi := block_index t
  unfold iblk
  rw [View.read_apply]
  show m ((c.tc : Thread nD τ).loc main_arg0) _ = m ((c.tc : Thread nD τ).loc main_arg0) _
  refine congrArg _ (funext fun a => Fin.ext ?_)
  match a with
  | ⟨0, _⟩ =>
    show win0_0.index t 0 * 512 + 1 * (j 0).val = 512 * t.val + (j 0).val
    rw [hi.1]; omega
  | ⟨1, _⟩ =>
    show win0_0.index t 1 * 4096 + 1 * (j 1).val = (j 1).val
    rw [hi.2.1]; omega

/-- The same for the second argument. -/
theorem obs_block_apply (c : Dev nD) (t : Fin cfg0.N) (ht : t.val < 16) (j : S512x4096.Idx) :
    (iblk m c 1 t : Vec Ideal S512x4096 .f32) j = obs m c (entry ⟨t.val, ht⟩ j) := by
  have hi := block_index t
  unfold iblk
  rw [View.read_apply]
  show m ((c.tc : Thread nD τ).loc main_arg1) _ = m ((c.tc : Thread nD τ).loc main_arg1) _
  refine congrArg _ (funext fun a => Fin.ext ?_)
  match a with
  | ⟨0, _⟩ =>
    show win0_1.index t 0 * 512 + 1 * (j 0).val = 512 * t.val + (j 0).val
    rw [hi.2.2.1]; omega
  | ⟨1, _⟩ =>
    show win0_1.index t 1 * 4096 + 1 * (j 1).val = (j 1).val
    rw [hi.2.2.2]; omega

/-- So the sum the accumulate step forms at point `t`, from blocks `P`, `Y` that are the arguments' row block `t`, is
    the total of the squared differences over that row block. -/
theorem point_total (c : Dev nD) (t : ℕ) (ht : t < 16) (P Y : FVec Ideal S512x4096 .f32)
    (hP : ∀ j, P j = pred m c (entry ⟨t, ht⟩ j)) (hY : ∀ j, Y j = obs m c (entry ⟨t, ht⟩ j)) :
    ∑ j : S512x4096.Idx, (P j - Y j) * (P j - Y j) = blockTotal (sqdiff (pred m c) (obs m c)) t := by
  rw [blockTotal_of_lt _ _ ht]
  exact Finset.sum_congr rfl fun j _ => by rw [hP j, hY j]; rfl

/-- THE INVARIANT: after point `n` the accumulator's one entry is the running total over row blocks `0 … n`. -/
theorem acc_after (c : Dev nD) : ∀ (n : ℕ) (h : n < cfg0.N) (k : S1x1.Idx),
    outsAt0 m c n h k = running (sqdiff (pred m c) (obs m c)) n
  | 0, h, k => by
    rw [outsAt0_A m c ⟨0, h⟩ rfl, first_value]
    refine (step_apply _ _ _ k).trans ?_
    rw [reset_apply, zero_add]
    have h0 : (0 : ℕ) < 16 := by decide
    exact point_total m c 0 h0 _ _ (pred_block_apply m c ⟨0, h⟩ h0) (obs_block_apply m c ⟨0, h⟩ h0)
  | n + 1, h, k => by
    have hN : cfg0.N = 16 := N_0
    have hB : ¬(⟨n + 1, h⟩ : Fin cfg0.N).val % 16 = 0 := by dsimp only; omega
    rw [outsAt0_B m c ⟨n + 1, h⟩ hB, later_value]
    refine (step_apply _ _ _ k).trans ?_
    show outsAt0 m c n _ k + _ = running _ n + blockTotal _ (n + 1)
    rw [acc_after c n _ k]
    have hn : n + 1 < 16 := by omega
    exact congrArg _ (point_total m c (n + 1) hn _ _ (pred_block_apply m c ⟨n + 1, h⟩ hn) (obs_block_apply m c ⟨n + 1, h⟩ hn))

end Cert.KernelIdeal.Accum

end
-- ==== Proof.KernelResult.lean ====
/-
  What the idealized kernel returns: the sum of the squared differences over every entry.

  The accumulator's 1 x 1 block is written back to its 1 x 1 array once, after the last grid point, when it holds the
  running total over all sixteen row blocks, which is the sum over every entry (the regrouping law). That one block is
  the whole array, so the array ends holding that sum. The line after the region views the 1 x 1 array as a scalar:
  the same single entry. The argument arrays are never written.
-/
import proofs.«139666_j32366873542744_1_alg».proof.Proof.RunningTotal
import Idealize.ShloMosaic.Lib.Pipeline.Value
import Idealize.ShloMosaic.Lib.StableHlo.Run
import Idealize.ShloMosaic.Lib.Tactic

noncomputable section

namespace Cert.KernelIdeal.Accum

open Cert.KernelIdeal Cert.KernelIdeal.Gen
open Idealize.ShloMosaic Idealize.ShloMosaic.TcCoe Idealize.SL.Sem
open Idealize.ShloMosaic.Pipeline (Dat)
open Cert.SquaredError (sqdiff running_last)

variable (m : (ℓ : Loc nD τ sig) → Buf (Elt Ideal) ℓ) (ρ : Dev nD → PrngReg)

/-- The sum of the squared differences of the two argument arrays over every entry. -/
abbrev total (c : Dev nD) : EReal := ∑ i : S8192x4096.Idx, sqdiff (pred m c) (obs m c) i

/-- The 1 x 1 result array holding it. -/
abbrev result (c : Dev nD) : Buf (Elt Ideal) ((c : Thread nD τ).loc main_v0) := fun _ => total m c

/-- After the last point the accumulator holds the sum over every entry. -/
theorem acc_last (c : Dev nD) : outsAt0 m c t0_15.val t0_15.isLt = result m c :=
  funext fun k => (acc_after m c _ _ k).trans (running_last _)

/-- The one write-back, after point 15, writes it: block (0, 0) of the 1 x 1 array is the array. -/
theorem written_back (c : Dev nD) (t : Fin cfg0.N) (hf : (cfg0.win 2).flush t = true) :
    (dats m 0 c).flushed 2 t = ((cfg0.win 2).blk t).view.read (Elt Ideal) (result m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2, acc_last]
  have hz' : (fun a => win0_2.index t0_15 a * main_v0.ty.shape.size a) = fun _ => 0 :=
    funext fun a => by fin_cases a <;> decide
  exact (Memref.read_access_unit_zero (Elt Ideal) main_v0 hz' (fun a => by rw [congrFun hz' a]; simp) (result m c)).symm

/-- So the result array ends holding the sum: the block written back covers its one entry. -/
theorem result_array (c : Dev nD) : (dats m 0 c).arrAt 2 cfg0.N = result m c :=
  (dats m 0 c).arrAt_eq_of_cover 2 (result m c) (written_back m c) fun i =>
    ⟨t0_15, (flush0_2 t0_15).mpr rfl, by
      show i ∈ ((View.whole main_v0).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_15 0 * win0_2.size 0 ≤ (i 0 : Nat)
          ∧ (i 0 : Nat) < win0_2.index t0_15 0 * win0_2.size 0 + win0_2.xsize (grid0.coords t0_15) 0
        rw [show win0_2.index t0_15 0 * win0_2.size 0 = 0 from by decide +kernel,
          show win0_2.xsize (grid0.coords t0_15) 0 = 1 from by decide +kernel]
        omega
      | ⟨1, _⟩ =>
        show win0_2.index t0_15 1 * win0_2.size 1 ≤ (i 1 : Nat)
          ∧ (i 1 : Nat) < win0_2.index t0_15 1 * win0_2.size 1 + win0_2.xsize (grid0.coords t0_15) 1
        rw [show win0_2.index t0_15 1 * win0_2.size 1 = 0 from by decide +kernel,
          show win0_2.xsize (grid0.coords t0_15) 1 = 1 from by decide +kernel]
        omega⟩

/-- The line after the region views the 1 x 1 array as a scalar: its one entry is the sum. -/
theorem scalar_value (c : Dev nD) :
    Pipeline.afterTail₀ cfgs (dats m) 0 (V0 m) [hostOps1] c main_v1 = fun _ => total m c := by
  have e := (Pipeline.withArrays_arr spec0 launch0.win.arr_inj c (V0 m c)
    (fun w => (dats m 0 c).arrAt w cfg0.N) 2).trans (result_array m c)
  unfold Pipeline.afterTail₀
  show StableHlo.after hostOps1 _ (Proc.devRef .tc main_v1) = _
  after_results
  funext i
  show shapeCast S_ (Pipeline.withArrays spec0 c (V0 m c) (fun w => (dats m 0 c).arrAt w cfg0.N)
      (Proc.devRef .tc (Pipeline.arrRef spec0 2))) shapeCasts_S1x1_S_ i = total m c
  rw [e]
  rfl

/-- THE KERNEL'S RUN, READ: every weakly fair execution terminates with the scalar result at the sum of the squared
    differences over every entry, and the three argument arrays as launched. -/
theorem run : θ_run defs (onTc (τ := τ) (main (F := Ideal))) ⟨m, fun _ => 0, ρ⟩ fun r => ∀ c : Dev nD,
      r.2.mem ((c.tc : Thread nD τ).loc main_v1) = (fun _ => total m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v1 (Pipeline.mem_restRefs_of main_v1 (by decide) (by decide))).trans (scalar_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans
        (W_main_arg2 m (dats m) c)⟩)
    (run_main m ρ)

end Cert.KernelIdeal.Accum

end
-- ==== Proof.ReferenceResult.lean ====
/-
  What the idealized reference returns: the same sum.

  The reference subtracts the two arrays entry by entry, squares, and adds every entry onto the float zero in one
  reduction over both axes. On the extended reals the float zero is the real number 0, so the result is the sum of the
  squared differences over every entry.
-/
import proofs.«139666_j32366873542744_1_alg».proof.Proof.SquaredError
import proofs.«139666_j32366873542744_1_alg».proof.Proof.Gen.ReferenceIdeal.Read

noncomputable section

namespace Cert.ReferenceIdeal.RefValue

open Cert.ReferenceIdeal Cert.ReferenceIdeal.Gen Idealize.ShloMosaic
open Cert.SquaredError (sqdiff)

/-- The reference's result term is the sum of the squared differences over every entry. -/
theorem reference_value (p y : (⟨S8192x4096, .f32⟩ : BufTy).Contents (Elt Ideal)) :
    Host.reduceAdd (F := Ideal) (mulf (subf p y) (subf p y)) (constant (F := Ideal) S_ .f32 0x00000000#32)
        reducesTo_S8192x4096_S_d0_1 h_S_
      = fun _ => ∑ i : S8192x4096.Idx, sqdiff p y i := by
  refine (Read.val_main_v2_eq (F := Ideal) p y).trans (funext fun i => ?_)
  refine (Read.val_main_v2_apply p y i).trans ?_
  show Ideal.ofBits .f32 0x00000000#32 + _ = _
  rw [Ideal.ofBits_zero_f32, zero_add]
  rfl

end Cert.ReferenceIdeal.RefValue

end
-- ==== Proof.lean ====
/-
  Sum of squared errors: a kernel that accumulates over row blocks against one whole-array reduction.

  For two 8192 x 4096 arrays `p`, `y` (a third argument is not read by either program) write
  `f i = (p i - y i) * (p i - y i)`. The reference returns `0 + ∑ i, f i` over every entry. The kernel visits the
  sixteen blocks of 512 rows in order; at the first it sets a 1 x 1 accumulator to zero, and at every block `t` it adds
  `∑ j, f (512 t + j₀, j₁)` over the block's entries to the accumulator; after the last block the accumulator is written
  out and viewed as a scalar. On the extended reals both float zeros are the real 0 and every float operation is the
  exact one, so the kernel returns `(…((0 + B₀) + B₁) + …) + B₁₅` with `Bₜ` the total over row block `t`. Addition on
  the extended reals is commutative and associative, the sixteen row blocks partition the index set, and therefore the two
  results are the same extended real for every input: finiteness of the inputs is not used.

  Where each step is: the summand, the partition and the regrouping law in Proof/SquaredError.lean; the body's stored
  values read on the extended reals in Proof/BlockArithmetic.lean; which stored value each control case leaves in the
  accumulator in Proof/CaseValues.lean; the induction over the grid points in Proof/RunningTotal.lean; the write-back,
  the scalar view and the kernel's run in Proof/KernelResult.lean; the reference's term in Proof/ReferenceResult.lean.
  The idealization rewrote no operation, so the preservation claim has nothing to state.
-/
import proofs.«139666_j32366873542744_1_alg».proof.Defs
import proofs.«139666_j32366873542744_1_alg».proof.Proof.Gen.Kernel
import proofs.«139666_j32366873542744_1_alg».proof.Proof.Gen.Kernel.Skeleton
import proofs.«139666_j32366873542744_1_alg».proof.Proof.Gen.Kernel.Launch
import proofs.«139666_j32366873542744_1_alg».proof.Proof.Gen.Kernel.Points
import proofs.«139666_j32366873542744_1_alg».proof.Proof.Gen.Kernel.Frame
import proofs.«139666_j32366873542744_1_alg».proof.Proof.Gen.KernelIdeal
import proofs.«139666_j32366873542744_1_alg».proof.Proof.Gen.KernelIdeal.Skeleton
import proofs.«139666_j32366873542744_1_alg».proof.Proof.Gen.KernelIdeal.Launch
import proofs.«139666_j32366873542744_1_alg».proof.Proof.Gen.KernelIdeal.Points
import proofs.«139666_j32366873542744_1_alg».proof.Proof.Gen.KernelIdeal.Frame
import proofs.«139666_j32366873542744_1_alg».proof.Proof.Gen.ReferenceIdeal
import proofs.«139666_j32366873542744_1_alg».proof.Proof.Gen.Pre_finite_inputs
import proofs.«139666_j32366873542744_1_alg».proof.Proof.Gen.ReferenceIdeal.Run
import proofs.«139666_j32366873542744_1_alg».proof.Proof.Gen.ReferenceIdeal.Read
import proofs.«139666_j32366873542744_1_alg».proof.Proof.KernelResult
import proofs.«139666_j32366873542744_1_alg».proof.Proof.ReferenceResult
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is straight-line host code: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories that agree on the arguments, the kernel's scalar ends at the sum of the squared differences over
    every entry (accumulated block by block, then regrouped) and the reference's at the same sum (added at once). -/
theorem algebraic : Cert.algebraic_KernelIdeal_ReferenceIdeal := by
  intro m ρ m' ρ' _ hagree
  refine ⟨fun c => fun _ => Cert.KernelIdeal.Accum.total m c, Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1]
  exact Cert.ReferenceIdeal.RefValue.reference_value _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
